-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x2x3 : Shape := ⟨3, ![1024, 2, 3]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2x3 : S_.BroadcastsInDim S1024x2x3 (![] : Fin 0 → Fin S1024x2x3.rank)
  reducesTo_S1024x2x3_S_d0_1_2 : S1024x2x3.ReducesTo [0, 1, 2] S_

variable [Facts]

def fn {F : FTy → Type} [FloatOps F] (main_arg0 : FVec F S16384x1024 .f32) (main_arg1 : FVec F S1024x2x3 .f32) (main_arg2 : FVec F S1024x2x3 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x2x3 .f32 := Host.absf main_arg1
  let main_cst_0 : FVec F S_ .f32 := constant S_ .f32 0x7F800000#32
  let main_v5 : FVec F S1024x2x3 .f32 := broadcastInDim S1024x2x3 ![] bcast_S_S1024x2x3 main_cst_0
  let main_v6 : IVec S1024x2x3 1 := cmpf .olt main_v4 main_v5
  let main_c_1 : IVec S_ 1 := constantI S_ 1 1#1
  let main_v7 : IVec S_ 1 := (fun x v => Host.reduce IntOp.andi x v reducesTo_S1024x2x3_S_d0_1_2 h_S_) main_v6 main_c_1
  let main_v8 : IVec S_ 1 := andi main_v3 main_v7
  let main_v9 : FVec F S1024x2x3 .f32 := Host.absf main_arg2
  let main_cst_2 : FVec F S_ .f32 := constant S_ .f32 0x7F800000#32
  let main_v10 : FVec F S1024x2x3 .f32 := broadcastInDim S1024x2x3 ![] bcast_S_S1024x2x3 main_cst_2
  let main_v11 : IVec S1024x2x3 1 := cmpf .olt main_v9 main_v10
  let main_c_3 : IVec S_ 1 := constantI S_ 1 1#1
  let main_v12 : IVec S_ 1 := (fun x v => Host.reduce IntOp.andi x v reducesTo_S1024x2x3_S_d0_1_2 h_S_) main_v11 main_c_3
  let main_v13 : IVec S_ 1 := andi main_v8 main_v12
  main_v13
-- ==== Kernel.lean ====
abbrev S16384x1024 : Shape := ⟨2, ![16384, 1024]⟩
abbrev S1024x2x3 : Shape := ⟨3, ![1024, 2, 3]⟩
abbrev S2x3x1024 : Shape := ⟨3, ![2, 3, 1024]⟩
abbrev S6x1024 : Shape := ⟨2, ![6, 1024]⟩
abbrev S1024x1024 : Shape := ⟨2, ![1024, 1024]⟩
abbrev S1x1024 : Shape := ⟨2, ![1, 1024]⟩

abbrev nBuf : Space → Nat
  | .hbm => 9
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x2x3, .f32⟩
  | .hbm, ⟨2, _⟩ => ⟨S1024x2x3, .f32⟩
  | .hbm, ⟨3, _⟩ => ⟨S1024x2x3, .f32⟩
  | .hbm, ⟨4, _⟩ => ⟨S2x3x1024, .f32⟩
  | .hbm, ⟨5, _⟩ => ⟨S6x1024, .f32⟩
  | .hbm, ⟨6, _⟩ => ⟨S2x3x1024, .f32⟩
  | .hbm, ⟨7, _⟩ => ⟨S6x1024, .f32⟩
  | .hbm, ⟨8, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S6x1024, .f32⟩
  | .local _ .vmem, ⟨3, _⟩ => ⟨S6x1024, .f32⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1024x2x3_S2x3x1024_1_2_0 : S1024x2x3.Transposes [1, 2, 0] S2x3x1024
  shapeCasts_S2x3x1024_S6x1024 : S2x3x1024.ShapeCasts S6x1024
  inb_S1024x1024_S1024x1024_0_0 : ∀ a, (![0, 0] : Fin 2 → Nat) a + S1024x1024.size a ≤ S1024x1024.size a
  h_S1024x1024 : 0 < S1024x1024.numel
  inb_S6x1024_S6x1024_0_0 : ∀ a, (![0, 0] : Fin 2 → Nat) a + S6x1024.size a ≤ S6x1024.size a
  h_S6x1024 : 0 < S6x1024.numel
  shapeCasts_S6x1024_S6x1024 : S6x1024.ShapeCasts S6x1024
  slices_S6x1024_o0_0_S1x1024 : S6x1024.Slices ![0, 0] S1x1024
  broadcasts_S1x1024_S1024x1024 : S1x1024.Broadcasts S1024x1024
  slices_S6x1024_o1_0_S1x1024 : S6x1024.Slices ![1, 0] S1x1024
  slices_S6x1024_o2_0_S1x1024 : S6x1024.Slices ![2, 0] S1x1024
  slices_S6x1024_o3_0_S1x1024 : S6x1024.Slices ![3, 0] S1x1024
  slices_S6x1024_o4_0_S1x1024 : S6x1024.Slices ![4, 0] S1x1024
  slices_S6x1024_o5_0_S1x1024 : S6x1024.Slices ![5, 0] S1x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x1024.size a ≤ S6x1024.size a
  hwx0_1 : ∀ i : grid0.Coords, EltTy.bits .f32 = 32 ∨ (Rect.block (s := S6x1024) S6x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x1024.size a ≤ S6x1024.size a
  hwx0_2 : ∀ i : grid0.Coords, EltTy.bits .f32 = 32 ∨ (Rect.block (s := S6x1024) S6x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S6x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S6x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x2x3 : Shape := ⟨3, ![1024, 2, 3]⟩
abbrev S16384x1024x1x1 : Shape := ⟨4, ![16384, 1024, 1, 1]⟩
abbrev S1x1024x2x3 : Shape := ⟨4, ![1, 1024, 2, 3]⟩
abbrev S16384x1024x2x3 : Shape := ⟨4, ![16384, 1024, 2, 3]⟩
abbrev S_ : Shape := ⟨0, ![]⟩
abbrev S16384x1024x2 : Shape := ⟨3, ![16384, 1024, 2]⟩

abbrev nBuf : Space → Nat
  | .hbm => 16
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2x3, .f32⟩
  | .hbm, ⟨2, _⟩ => ⟨S1024x2x3, .f32⟩
  | .hbm, ⟨3, _⟩ => ⟨S1024x2x3, .f32⟩
  | .hbm, ⟨4, _⟩ => ⟨S16384x1024x1x1, .f32⟩
  | .hbm, ⟨5, _⟩ => ⟨S1x1024x2x3, .f32⟩
  | .hbm, ⟨6, _⟩ => ⟨S16384x1024x2x3, .f32⟩
  | .hbm, ⟨7, _⟩ => ⟨S16384x1024x2x3, .f32⟩
  | .hbm, ⟨8, _⟩ => ⟨S16384x1024x2x3, .f32⟩
  | .hbm, ⟨9, _⟩ => ⟨S1x1024x2x3, .f32⟩
  | .hbm, ⟨10, _⟩ => ⟨S16384x1024x2x3, .f32⟩
  | .hbm, ⟨11, _⟩ => ⟨S16384x1024x2x3, .f32⟩
  | .hbm, ⟨12, _⟩ => ⟨S_, .f32⟩
  | .hbm, ⟨13, _⟩ => ⟨S16384x1024x2, .f32⟩
  | .hbm, ⟨14, _⟩ => ⟨S_, .f32⟩
  | .hbm, ⟨15, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S16384x1024_S16384x1024x1x1_0_1 : S16384x1024.BroadcastsInDim S16384x1024x1x1 (![0, 1] : Fin 2 → Fin S16384x1024x1x1.rank)
  bcast_S1024x2x3_S1x1024x2x3_1_2_3 : S1024x2x3.BroadcastsInDim S1x1024x2x3 (![1, 2, 3] : Fin 3 → Fin S1x1024x2x3.rank)
  bcast_S16384x1024x1x1_S16384x1024x2x3_0_1_2_3 : S16384x1024x1x1.BroadcastsInDim S16384x1024x2x3 (![0, 1, 2, 3] : Fin 4 → Fin S16384x1024x2x3.rank)
  bcast_S1x1024x2x3_S16384x1024x2x3_0_1_2_3 : S1x1024x2x3.BroadcastsInDim S16384x1024x2x3 (![0, 1, 2, 3] : Fin 4 → Fin S16384x1024x2x3.rank)
  reducesTo_S16384x1024x2x3_S16384x1024x2_d3 : S16384x1024x2x3.ReducesTo [3] S16384x1024x2
  h_S_ : 0 < S_.numel
  reducesTo_S16384x1024x2_S16384x1024_d2 : S16384x1024x2.ReducesTo [2] S16384x1024

variable [Facts₀]

class Facts : Prop extends Facts₀ where

variable [Facts]
-- ==== Proof.Envelope.lean ====
/-
  The function both programs compute, and the two order facts that join their arrangements.

  For a batch row `r` and a buyer `n` the six affine pieces are
      line r n k j = bids[r, n] · exp(w[n, k, j]) + β[n, k, j]        (k < 2, j < 3),
  and the result is the lower envelope over `k` of the upper envelopes over `j`:
      envelope[r, n] = min_k max_j line r n k j.
  One side nests the six pieces as  min (max (max ℓ₀₀ ℓ₀₁) ℓ₀₂) (max (max ℓ₁₀ ℓ₁₁) ℓ₁₂);  the other folds each
  axis from the neutral element (−∞ for max, +∞ for min). A fold of a commutative, associative operation over
  two or three coordinates is the nested form joined to the initial value, and joining −∞ under max (or +∞
  under min) changes nothing on the extended reals: no finiteness of the inputs is used.
-/
import Idealize.ShloMosaic.PureOps.Ideal
import Idealize.ShloMosaic.PureOps.Ideal.Laws
import Idealize.ShloMosaic.Lib.ValueIdx

noncomputable section

namespace Cert.Envelope

open Idealize.ShloMosaic Idealize.ShloMosaic.ValueIdx

/-- The bids: batch rows by buyers. -/
abbrev SBids : Shape := ⟨2, ![16384, 1024]⟩
/-- The parameters: buyers by `k` by `j`. -/
abbrev SPar : Shape := ⟨3, ![1024, 2, 3]⟩

variable {F : FTy → Type} [FloatOps F]

/-- The affine piece `(k, j)` of buyer `n` at batch row `r`: the bid scaled by the exponential of the weight,
    plus the offset. -/
def line (bids : SBids.Idx → Elt F .f32) (w β : SPar.Idx → Elt F .f32) (r : Fin 16384) (n : Fin 1024) (k : Fin 2) (j : Fin 3) :
    Elt F .f32 :=
  FloatOps.addf (FloatOps.mulf (bids (ix2 r n)) (FloatOps.hostUnary .exp (w (ix3 n k j)))) (β (ix3 n k j))

/-- The upper envelope over `j` of the pieces of one `k`, nested from the left. -/
def upper (bids : SBids.Idx → Elt F .f32) (w β : SPar.Idx → Elt F .f32) (r : Fin 16384) (n : Fin 1024) (k : Fin 2) : Elt F .f32 :=
  FloatOps.maximumf (FloatOps.maximumf (line bids w β r n k 0) (line bids w β r n k 1)) (line bids w β r n k 2)

/-- The result: at `(r, n)` the smaller of the two upper envelopes. -/
def envelope (bids : SBids.Idx → Elt F .f32) (w β : SPar.Idx → Elt F .f32) : SBids.Idx → Elt F .f32 := fun i =>
  FloatOps.minimumf (upper bids w β (i 0) (i 1) 0) (upper bids w β (i 0) (i 1) 1)

theorem envelope_ix2 (bids : SBids.Idx → Elt F .f32) (w β : SPar.Idx → Elt F .f32) (r : Fin 16384) (n : Fin 1024) :
    envelope bids w β (ix2 r n) = FloatOps.minimumf (upper bids w β r n 0) (upper bids w β r n 1) := rfl

/-! ## Folds over two and three coordinates -/

section Folds
variable {α : Type} (f : α → α → α) [Std.Commutative f] [Std.Associative f]

/-- A fold over two coordinates is the initial value joined to the pair. -/
theorem fold_univ_fin2 (b : α) (g : Fin 2 → α) :
    (Finset.univ : Finset (Fin 2)).fold f b g = f b (f (g 0) (g 1)) := by
  simp only [Fin.univ_succ, Finset.fold_cons, Finset.fold_map, Finset.univ_unique, Finset.fold_singleton]
  show f (g 0) (f (g 1) b) = _
  ac_rfl

/-- A fold over three coordinates is the initial value joined to the triple nested from the left. -/
theorem fold_univ_fin3 (b : α) (g : Fin 3 → α) :
    (Finset.univ : Finset (Fin 3)).fold f b g = f b (f (f (g 0) (g 1)) (g 2)) := by
  simp only [Fin.univ_succ, Finset.fold_cons, Finset.fold_map, Finset.univ_unique, Finset.fold_singleton]
  show f (g 0) (f (g 1) (f (g 2) b)) = _
  ac_rfl

end Folds

/-- −∞ is neutral for the maximum of extended reals. -/
theorem max_negInf (y : Ideal .f32) : FloatOps.maximumf (F := Ideal) (Ideal.ofBits .f32 0xFF800000#32) y = y := by
  show max (Ideal.ofBits .f32 0xFF800000#32) y = y
  simp [Ideal.ofBits, Ideal.ieee]

/-- +∞ is neutral for the minimum of extended reals. -/
theorem min_posInf (y : Ideal .f32) : FloatOps.minimumf (F := Ideal) (Ideal.ofBits .f32 0x7F800000#32) y = y := by
  show min (Ideal.ofBits .f32 0x7F800000#32) y = y
  simp [Ideal.ofBits, Ideal.ieee]

end Cert.Envelope

end
-- ==== Proof.KernelBlock.lean ====
/-
  The kernel computes the envelope.

  The grid has sixteen points; point `t` works on the 1024 batch rows `1024·t … 1024·t + 1023` of the bids and writes
  the same rows of the result, while both re-laid parameter arrays (six rows of 1024 buyers each) are resident whole at
  every point. At the entry `(y₀, y₁)` of its block the body leaves
      min (max (max ℓ₀ ℓ₁) ℓ₂) (max (max ℓ₃ ℓ₄) ℓ₅),     ℓ_ρ = bids-block[y₀, y₁] · W[ρ, y₁] + B[ρ, y₁],
  and row `ρ = 3·k + j` of `W` (of `B`) at column `n` is `exp(w[n, k, j])` (is `β[n, k, j]`), so `ℓ_{3k+j}` is the piece
  `(k, j)` of buyer `y₁` at batch row `1024·t + y₀`. The sixteen blocks tile the result array, which therefore ends holding
  the envelope everywhere.
-/
import proofs.«151522_j16063177687585_2_alg».proof.Proof.Gen.KernelIdeal.Value
import proofs.«151522_j16063177687585_2_alg».proof.Proof.Envelope
import Idealize.ShloMosaic.Lib.Pipeline.Value
import Idealize.ShloMosaic.Lib.ValueIdx
import Idealize.ShloMosaic.Lib.StableHlo.Run

noncomputable section

namespace Cert.KernelIdeal.KernelValue

open Cert.KernelIdeal Cert.KernelIdeal.Gen Idealize.ShloMosaic Idealize.ShloMosaic.TcCoe Idealize.SL.Sem
open Idealize.ShloMosaic.ValueIdx Cert.Envelope
open Idealize.ShloMosaic.Pipeline (Dat)

variable {F : FTy → Type} [FloatOps F]

/-! ## One entry of a block, from the body's loads -/

theorem origin : (![0, 0] : Fin 2 → Nat) = fun _ => 0 := funext fun a => by fin_cases a <;> rfl

/-- What the body leaves in the output block is the index-by-index function of its three loads. -/
theorem block_eq (P0 : Vec F S1024x1024 .f32) (P1 P2 : Vec F S6x1024 .f32) : out0_3 P0 P1 P2 = Value.E3 P0 P1 P2 := by
  unfold out0_3
  simp only [View.ld_unit_zero (S := S1024x1024) origin, View.ld_unit_zero (S := S6x1024) origin]
  exact funext fun y => Value.canon3_eq P0 P1 P2 y

/-- The entry `y` of the block: if the bids' block holds `b` at `y`, and rows `3·k + j` of the two parameter blocks hold
    `W k j` and `B k j` at column `y₁`, the entry is the nested envelope of the six pieces `b · W k j + B k j`. -/
theorem entry_eq (P0 : Vec F S1024x1024 .f32) (P1 P2 : Vec F S6x1024 .f32) (y : S1024x1024.Idx)
    (b : Elt F .f32) (W B : Fin 2 → Fin 3 → Elt F .f32)
    (hb : ∀ y' : S1024x1024.Idx, (y' 0).val = (y 0).val → (y' 1).val = (y 1).val → P0 y' = b)
    (hW : ∀ (k : Fin 2) (j : Fin 3) (z : S6x1024.Idx), (z 0).val = 3 * k.val + j.val → (z 1).val = (y 1).val → P1 z = W k j)
    (hB : ∀ (k : Fin 2) (j : Fin 3) (z : S6x1024.Idx), (z 0).val = 3 * k.val + j.val → (z 1).val = (y 1).val → P2 z = B k j) :
    Value.E3 P0 P1 P2 y = FloatOps.minimumf
      (FloatOps.maximumf (FloatOps.maximumf (FloatOps.addf (FloatOps.mulf b (W 0 0)) (B 0 0)) (FloatOps.addf (FloatOps.mulf b (W 0 1)) (B 0 1)))
        (FloatOps.addf (FloatOps.mulf b (W 0 2)) (B 0 2)))
      (FloatOps.maximumf (FloatOps.maximumf (FloatOps.addf (FloatOps.mulf b (W 1 0)) (B 1 0)) (FloatOps.addf (FloatOps.mulf b (W 1 1)) (B 1 1)))
        (FloatOps.addf (FloatOps.mulf b (W 1 2)) (B 1 2))) := by
  have b0 := hb (Value.ix3_0 y) rfl rfl
  have b1 := hb (Value.ix3_3 y) rfl rfl
  have b2 := hb (Value.ix3_6 y) rfl rfl
  have b3 := hb (Value.ix3_9 y) rfl rfl
  have b4 := hb (Value.ix3_12 y) rfl rfl
  have b5 := hb (Value.ix3_15 y) rfl rfl
  have w0 := hW 0 0 (Value.ix3_1 y) rfl rfl
  have w1 := hW 0 1 (Value.ix3_4 y) rfl rfl
  have w2 := hW 0 2 (Value.ix3_7 y) rfl rfl
  have w3 := hW 1 0 (Value.ix3_10 y) rfl rfl
  have w4 := hW 1 1 (Value.ix3_13 y) rfl rfl
  have w5 := hW 1 2 (Value.ix3_16 y) rfl rfl
  have c0 := hB 0 0 (Value.ix3_2 y) rfl rfl
  have c1 := hB 0 1 (Value.ix3_5 y) rfl rfl
  have c2 := hB 0 2 (Value.ix3_8 y) rfl rfl
  have c3 := hB 1 0 (Value.ix3_11 y) rfl rfl
  have c4 := hB 1 1 (Value.ix3_14 y) rfl rfl
  have c5 := hB 1 2 (Value.ix3_17 y) rfl rfl
  show FloatOps.minimumf
      (FloatOps.maximumf (FloatOps.maximumf (FloatOps.addf (FloatOps.mulf (P0 (Value.ix3_0 y)) (P1 (Value.ix3_1 y))) (P2 (Value.ix3_2 y)))
          (FloatOps.addf (FloatOps.mulf (P0 (Value.ix3_3 y)) (P1 (Value.ix3_4 y))) (P2 (Value.ix3_5 y))))
        (FloatOps.addf (FloatOps.mulf (P0 (Value.ix3_6 y)) (P1 (Value.ix3_7 y))) (P2 (Value.ix3_8 y))))
      (FloatOps.maximumf (FloatOps.maximumf (FloatOps.addf (FloatOps.mulf (P0 (Value.ix3_9 y)) (P1 (Value.ix3_10 y))) (P2 (Value.ix3_11 y)))
          (FloatOps.addf (FloatOps.mulf (P0 (Value.ix3_12 y)) (P1 (Value.ix3_13 y))) (P2 (Value.ix3_14 y))))
        (FloatOps.addf (FloatOps.mulf (P0 (Value.ix3_15 y)) (P1 (Value.ix3_16 y))) (P2 (Value.ix3_17 y)))) = _
  simp only [b0, b1, b2, b3, b4, b5, w0, w1, w2, w3, w4, w5, c0, c1, c2, c3, c4, c5]

end Cert.KernelIdeal.KernelValue

end
-- ==== Proof.Relaid.lean ====
/-
  The parameter arrays as the kernel receives them.

  Before the launch each parameter array `x[n, k, j]` (buyers by 2 by 3) is transposed to `[k, j, n]` and flattened to six
  rows of 1024 buyers: row `3·k + j`, column `n` holds `x[n, k, j]`. The flattening keeps the row-major position,
  `(k·3 + j)·1024 + n` on both sides, and the transposition moves axis `n` last.
-/
import Idealize.ShloMosaic.Lib.Pipeline.Value
import Idealize.ShloMosaic.Lib.ValueIdx

noncomputable section

namespace Cert.Relaid

open Idealize.ShloMosaic Idealize.ShloMosaic.ValueIdx

/-- Buyers by `k` by `j`. -/
abbrev SPar : Shape := ⟨3, ![1024, 2, 3]⟩
/-- `k` by `j` by buyers. -/
abbrev SKJN : Shape := ⟨3, ![2, 3, 1024]⟩
/-- Six rows of buyers. -/
abbrev SRows : Shape := ⟨2, ![6, 1024]⟩

/-- Row `3·k + j`, column `n` of the re-laid array is the entry `(n, k, j)` of the parameter array. -/
theorem relaid_apply {α : Type} (x : SPar.Idx → α) (hT : SPar.Transposes [1, 2, 0] SKJN) (hC : SKJN.ShapeCasts SRows)
    (z : SRows.Idx) (n : Fin 1024) (k : Fin 2) (j : Fin 3) (hz0 : (z 0).val = 3 * k.val + j.val) (hz1 : (z 1).val = n.val) :
    shapeCast SRows (transpose SKJN [1, 2, 0] x hT) hC z = x (ix3 n k j) := by
  refine (shapeCast_apply _ hC z (ix3 k j n) ?_).trans ?_
  · rw [Shape.rowMajor_val_three, Shape.rowMajor_val_two]
    show (k.val * 3 + j.val) * 1024 + n.val = (z 0).val * 1024 + (z 1).val
    rw [hz0, hz1]; omega
  · exact transpose_apply [1, 2, 0] x hT (ix3 k j n) (ix3 n k j)
      (fun b => match b with | ⟨0, _⟩ => rfl | ⟨1, _⟩ => rfl | ⟨2, _⟩ => rfl)

end Cert.Relaid

end
-- ==== Proof.KernelArray.lean ====
/-
  From the blocks to the whole result array.

  Point `t` of the grid reads rows `1024·t …` of the bids and both re-laid parameter arrays whole, and writes rows
  `1024·t …` of the result. Reading the bids' block at `(y₀, y₁)` gives `bids[1024·t + y₀, y₁]`; reading row `3·k + j`,
  column `y₁` of a parameter block gives `exp(w[y₁, k, j])`, respectively `β[y₁, k, j]`. So what point `t` writes back is
  block `t` of the envelope, and since every batch row `i₀` lies in the block of point `i₀ / 1024`, the array ends as the
  envelope of the arguments.
-/
import proofs.«151522_j16063177687585_2_alg».proof.Proof.KernelBlock
import proofs.«151522_j16063177687585_2_alg».proof.Proof.Relaid
import Idealize.ShloMosaic.Lib.Pipeline.Value
import Idealize.ShloMosaic.Lib.ValueIdx
import Idealize.ShloMosaic.Lib.StableHlo.Run

noncomputable section

namespace Cert.KernelIdeal.KernelValue

open Cert.KernelIdeal Cert.KernelIdeal.Gen Idealize.ShloMosaic Idealize.ShloMosaic.TcCoe Idealize.SL.Sem
open Idealize.ShloMosaic.ValueIdx Idealize.ShloMosaic.StableHlo Cert.Envelope
open Idealize.ShloMosaic.Pipeline (Dat)

variable {F : FTy → Type} [FloatOps F]
variable (m : (ℓ : Loc nD τ sig) → Buf (Elt F) ℓ) (ρ : Dev nD → PrngReg)

/-! ## The parameter arrays as the region finds them -/

/-- The weights' window stages the exponentials, transposed to `[k, j, n]` and flattened to six rows. -/
theorem staged_w (c : Dev nD) : (V m c main_v2 : S6x1024.Idx → Elt F .f32) =
    shapeCast S6x1024 (transpose S2x3x1024 [1, 2, 0] (Host.exp (m ((c : Thread nD τ).loc main_arg1))) transposes_S1024x2x3_S2x3x1024_1_2_0)
      shapeCasts_S2x3x1024_S6x1024 := by
  dsimp only [Gen.V, Gen.hostOps0]; after_results; rfl

/-- The offsets' window stages the offsets, transposed and flattened the same way. -/
theorem staged_β (c : Dev nD) : (V m c main_v4 : S6x1024.Idx → Elt F .f32) =
    shapeCast S6x1024 (transpose S2x3x1024 [1, 2, 0] (m ((c : Thread nD τ).loc main_arg2)) transposes_S1024x2x3_S2x3x1024_1_2_0)
      shapeCasts_S2x3x1024_S6x1024 := by
  dsimp only [Gen.V, Gen.hostOps0]; after_results; rfl

/-! ## The grid's index maps -/

/-- Over the sixteen points: the bids' block moves with the result's block along the batch axis, the parameter blocks
    stay at the origin, and nothing moves along the buyer axis. -/
theorem idx_facts : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every one of the sixteen row blocks is some point's. -/
theorem idx_onto : ∀ q : Fin 16, ∃ t : Fin cfg0.N, win0_3.index t = ![q.val, 0] :=
  (by decide +kernel : ∀ q : Fin 16, ∃ t : Fin grid0.N, win0_3.index t = ![q.val, 0])

/-! ## What a point writes back -/

/-- Point `t` writes back block `t` of the envelope of the argument arrays. -/
theorem flushed_eq (c : Dev nD) (t : Fin cfg0.N) :
    (dats m 0 c).flushed 3 t = ((cfg0.win 3).blk t).view.read (Elt F) (envelope (m ((c : Thread nD τ).loc main_arg0)) (m ((c : Thread nD τ).loc main_arg1)) (m ((c : Thread nD τ).loc main_arg2))) := by
  rw [Value.flushed3]
  have e := block_eq (iblk m c 0 t) (iblk m c 1 t) (iblk m c 2 t)
  rw [e]
  obtain ⟨f0, f1, f2, f3, f4, f5, f6⟩ := idx_facts t
  funext y
  show Value.E3 (iblk m c 0 t) (iblk m c 1 t) (iblk m c 2 t) y
    = envelope (m ((c : Thread nD τ).loc main_arg0)) (m ((c : Thread nD τ).loc main_arg1)) (m ((c : Thread nD τ).loc main_arg2)) (((cfg0.win 3).blk t).view.emb y)
  refine (entry_eq (iblk m c 0 t) (iblk m c 1 t) (iblk m c 2 t) y
    ((m ((c : Thread nD τ).loc main_arg0)) (ix2 ((((cfg0.win 3).blk t).view.emb y) 0) ((((cfg0.win 3).blk t).view.emb y) 1)))
    (fun k j => FloatOps.hostUnary .exp ((m ((c : Thread nD τ).loc main_arg1)) (ix3 ((((cfg0.win 3).blk t).view.emb y) 1) k j)))
    (fun k j => (m ((c : Thread nD τ).loc main_arg2)) (ix3 ((((cfg0.win 3).blk t).view.emb y) 1) k j)) ?_ ?_ ?_).trans ?_
  · -- the bids' block at `y` is the bids at the result's array index
    intro y' h0 h1
    have hidx : ((cfg0.win 0).blk t).view.emb y' = ix2 ((((cfg0.win 3).blk t).view.emb y) 0) ((((cfg0.win 3).blk t).view.emb y) 1) := by
      funext a; apply Fin.ext
      match a with
      | ⟨0, _⟩ => show win0_0.index t (0 : Fin 2) * 1024 + 1 * (y' 0).val = win0_3.index t (0 : Fin 2) * 1024 + 1 * (y 0).val; omega
      | ⟨1, _⟩ => show win0_0.index t (1 : Fin 2) * 1024 + 1 * (y' 1).val = win0_3.index t (1 : Fin 2) * 1024 + 1 * (y 1).val; omega
    show V m c main_arg0 (((cfg0.win 0).blk t).view.emb y') = _
    exact (congrArg (V m c main_arg0) hidx).trans (congrFun (V_main_arg0 m c) _)
  · -- row 3·k + j of the weights' block at column y₁
    intro k j z h0 h1
    show V m c main_v2 (((cfg0.win 1).blk t).view.emb z) = _
    refine (congrFun (staged_w m c) _).trans (Cert.Relaid.relaid_apply (Host.exp (m ((c : Thread nD τ).loc main_arg1))) _ _ _
      ((((cfg0.win 3).blk t).view.emb y) 1) k j ?_ ?_)
    · show win0_1.index t (0 : Fin 2) * 6 + 1 * (z 0).val = 3 * k.val + j.val; omega
    · show win0_1.index t (1 : Fin 2) * 1024 + 1 * (z 1).val = win0_3.index t (1 : Fin 2) * 1024 + 1 * (y 1).val; omega
  · -- row 3·k + j of the offsets' block at column y₁
    intro k j z h0 h1
    show V m c main_v4 (((cfg0.win 2).blk t).view.emb z) = _
    refine (congrFun (staged_β m c) _).trans (Cert.Relaid.relaid_apply (m ((c : Thread nD τ).loc main_arg2)) _ _ _
      ((((cfg0.win 3).blk t).view.emb y) 1) k j ?_ ?_)
    · show win0_2.index t (0 : Fin 2) * 6 + 1 * (z 0).val = 3 * k.val + j.val; omega
    · show win0_2.index t (1 : Fin 2) * 1024 + 1 * (z 1).val = win0_3.index t (1 : Fin 2) * 1024 + 1 * (y 1).val; omega
  · rfl

/-! ## The blocks tile the result -/

/-- An index of the result is in point `t`'s block iff each coordinate is in the block's range on its axis. -/
theorem mem_blk (t : Fin cfg0.N) (i : S16384x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v5).slice (win0_3.rect t)).set ↔ _
  rw [View.set_slice_whole, Rect.mem_set_unit]
  exact Iff.rfl

/-- Batch row `i₀` lies in the block of point `i₀ / 1024`: every index of the result is written back by some point. -/
theorem cover (i : S16384x1024.Idx) : ∃ t : Fin cfg0.N, (cfg0.win 3).flush t = true ∧ i ∈ ((cfg0.win 3).blk t).view.set := by
  have hi0 : (i 0).val < 16384 := (i 0).isLt
  have hi1 : (i 1).val < 1024 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The result array after the run is the envelope of the argument arrays. -/
theorem final (c : Dev nD) : (dats m 0 c).arrAt 3 cfg0.N = envelope (m ((c : Thread nD τ).loc main_arg0)) (m ((c : Thread nD τ).loc main_arg1)) (m ((c : Thread nD τ).loc main_arg2)) :=
  (dats m 0 c).arrAt_eq_of_cover 3 _ (fun t _ => flushed_eq m c t) cover

/-- Every weakly fair execution of the kernel's program terminates with the result array at the envelope of the
    arguments, and the arguments unchanged. -/
theorem run : θ_run defs (onTc (τ := τ) (main (F := F))) ⟨m, fun _ => 0, ρ⟩ fun r => ∀ c : Dev nD,
      r.2.mem ((c : Thread nD τ).loc main_v5) = envelope (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelValue

end
-- ==== Proof.ReferenceSide.lean ====
/-
  The reference computes the envelope.

  Its last two stages fold the four-axis array of affine pieces: first a maximum over `j` from −∞, then a minimum over
  `k` from +∞. At a result index `(r, n)` the minimum runs over the two entries `(r, n, k)`, each of which is the
  maximum over the three entries `(r, n, k, j)`; and the entry `(r, n, k, j)` of the array of pieces is
  `bids[r, n] · exp(w[n, k, j]) + β[n, k, j]`, the broadcasts only repeating values along the new axes.
-/
import proofs.«151522_j16063177687585_2_alg».proof.Proof.Gen.ReferenceIdeal.Read
import proofs.«151522_j16063177687585_2_alg».proof.Proof.Envelope
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.Envelope

/-- Dropping the `k` axis of a (row, buyer, k) index. -/
theorem reduces_k : S16384x1024x2.Reduces [2] S16384x1024 := by decide
/-- Dropping the `j` axis of a (row, buyer, k, j) index. -/
theorem reduces_j : S16384x1024x2x3.Reduces [3] S16384x1024x2 := by decide

/-- `(r, n)` with the coordinate `k` put back is `(r, n, k)`. -/
theorem lift_k (r : Fin 16384) (n : Fin 1024) (k : Fin (S16384x1024x2.size 2)) :
    reduces_k.lift (ix2 r n) k = ix3 r n (⟨k.val, k.isLt⟩ : Fin 2) := by
  funext a; apply Fin.ext
  fin_cases a <;> rfl

/-- `(r, n, k)` with the coordinate `j` put back is `(r, n, k, j)`. -/
theorem lift_j (r : Fin 16384) (n : Fin 1024) (k : Fin 2) (j : Fin (S16384x1024x2x3.size 3)) :
    reduces_j.lift (ix3 r n k) j = ix4 r n k (⟨j.val, j.isLt⟩ : Fin 3) := by
  funext a; apply Fin.ext
  fin_cases a <;> rfl

section
variable {F : FTy → Type} [FloatOps F]

/-- The array of pieces at `(r, n, k, j)` is the piece `(k, j)` of buyer `n` at row `r`: the broadcasts read the bids at
    `(r, n)` and both parameter arrays at `(n, k, j)`. -/
theorem pieces_apply (x0 : (⟨S16384x1024, .f32⟩ : BufTy).Contents (Elt F)) (x1 x2 : (⟨S1024x2x3, .f32⟩ : BufTy).Contents (Elt F))
    (r : Fin 16384) (n : Fin 1024) (k : Fin 2) (j : Fin 3) :
    val_main_v8 (F := F) x0 x1 x2 (ix4 r n k j) = line x0 x1 x2 r n k j := by
  have e0 : idx_main_v1 (idx_main_v3 (ix4 r n k j)) = ix2 r n := by
    funext a; apply Fin.ext
    match a with | ⟨0, _⟩ => rfl | ⟨1, _⟩ => rfl
  have e1 : idx_main_v2 (idx_main_v4 (ix4 r n k j)) = ix3 n k j := by
    funext a; apply Fin.ext
    match a with | ⟨0, _⟩ => rfl | ⟨1, _⟩ => rfl | ⟨2, _⟩ => rfl
  have e2 : idx_main_v6 (idx_main_v7 (ix4 r n k j)) = ix3 n k j := by
    funext a; apply Fin.ext
    match a with | ⟨0, _⟩ => rfl | ⟨1, _⟩ => rfl | ⟨2, _⟩ => rfl
  rw [val_main_v8_apply, val_main_v5_apply, val_main_v3_apply, val_main_v1_apply, val_main_v4_apply, val_main_v2_apply,
    val_main_v0_apply, val_main_v7_apply, val_main_v6_apply, e0, e1, e2]
  rfl

end

/-- The maximum over `j` from −∞, at `(r, n, k)`, is the upper envelope of the three pieces of `k`. -/
theorem upper_apply (x0 : (⟨S16384x1024, .f32⟩ : BufTy).Contents (Elt Ideal)) (x1 x2 : (⟨S1024x2x3, .f32⟩ : BufTy).Contents (Elt Ideal))
    (r : Fin 16384) (n : Fin 1024) (k : Fin 2) :
    val_main_v9 (F := Ideal) x0 x1 x2 (ix3 r n k) = upper x0 x1 x2 r n k := by
  unfold val_main_v9
  rw [Host.reduce_eq_fold_single FloatOps.maximumf _ _ reducesTo_S16384x1024x2x3_S16384x1024x2_d3 reduces_j h_S_]
  have hf : (val_main_v8 (F := Ideal) x0 x1 x2 ∘ reduces_j.lift (ix3 r n k)) = fun j : Fin 3 => line x0 x1 x2 r n k j :=
    funext fun j => (congrArg (val_main_v8 (F := Ideal) x0 x1 x2) (lift_j r n k j)).trans (pieces_apply x0 x1 x2 r n k j)
  refine (congrArg (fun g => Finset.fold (FloatOps.maximumf (F := Ideal) (φ := .f32)) _ g (Finset.univ : Finset (Fin 3))) hf).trans ?_
  rw [fold_univ_fin3]
  exact max_negInf _

/-- The minimum over `k` from +∞ of the upper envelopes is the envelope: the reference's result. -/
theorem result_eq (x0 : (⟨S16384x1024, .f32⟩ : BufTy).Contents (Elt Ideal)) (x1 x2 : (⟨S1024x2x3, .f32⟩ : BufTy).Contents (Elt Ideal)) :
    val_main_v10 (F := Ideal) x0 x1 x2 = envelope x0 x1 x2 := by
  funext i
  obtain ⟨r, n, rfl⟩ : ∃ (r : Fin 16384) (n : Fin 1024), i = ix2 r n := ⟨i 0, i 1, eq_ix2 i⟩
  unfold val_main_v10
  rw [Host.reduce_eq_fold_single FloatOps.minimumf _ _ reducesTo_S16384x1024x2_S16384x1024_d2 reduces_k h_S_]
  have hf : (val_main_v9 (F := Ideal) x0 x1 x2 ∘ reduces_k.lift (ix2 r n)) = fun k : Fin 2 => upper x0 x1 x2 r n k := by
    funext k
    rw [Function.comp_apply, lift_k r n k]
    exact upper_apply x0 x1 x2 r n _
  refine (congrArg (fun g => Finset.fold (FloatOps.minimumf (F := Ideal) (φ := .f32)) _ g (Finset.univ : Finset (Fin 2))) hf).trans ?_
  rw [fold_univ_fin2]
  exact min_posInf _

end Cert.ReferenceIdeal.RefValue

end
-- ==== Proof.Claims.lean ====
/-
  The five claims.

  The three frames: the two kernel programs run to the end without a fault and leave their arguments in place; the
  reference's run, with its result dropped, says the same of the reference. The idealization rewrote no operation, so
  there is nothing to preserve. For the value claim both runs are stated with ONE result, the envelope
      min_k max_j (bids[r, n] · exp(w[n, k, j]) + β[n, k, j])
  of the kernel's arguments: the kernel's array ends there block by block, the reference's two folds unfold to it, and the
  reference's arguments are the kernel's by hypothesis.
-/
import proofs.«151522_j16063177687585_2_alg».proof.Defs
import proofs.«151522_j16063177687585_2_alg».proof.Proof.Gen.Kernel.Frame
import proofs.«151522_j16063177687585_2_alg».proof.Proof.Gen.KernelIdeal.Frame
import proofs.«151522_j16063177687585_2_alg».proof.Proof.Gen.ReferenceIdeal
import proofs.«151522_j16063177687585_2_alg».proof.Proof.Gen.ReferenceIdeal.Run
import proofs.«151522_j16063177687585_2_alg».proof.Proof.Gen.ReferenceIdeal.Read
import proofs.«151522_j16063177687585_2_alg».proof.Proof.Gen.Pre_finite_inputs
import proofs.«151522_j16063177687585_2_alg».proof.Proof.KernelArray
import proofs.«151522_j16063177687585_2_alg».proof.Proof.ReferenceSide

noncomputable section

namespace Cert.Proof.Claims

open Idealize.ShloMosaic Idealize.ShloMosaic.TcCoe Idealize.SL.Sem Cert.Envelope

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the envelope of the kernel's arguments. -/
theorem algebraic : Cert.algebraic_KernelIdeal_ReferenceIdeal := by
  intro m ρ m' ρ' _ hagree
  refine ⟨_, Cert.KernelIdeal.KernelValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq, (hagree c).1, (hagree c).2.1, (hagree c).2.2]

end Cert.Proof.Claims

end
-- ==== Proof.lean ====
/-
  A batched piecewise-linear valuation: for every batch row `r` and buyer `n`,
      out[r, n] = min over k < 2 of max over j < 3 of ( bids[r, n] · exp(w[n, k, j]) + β[n, k, j] ).

  The kernel takes the exponentials and re-lays both parameter arrays to six rows of buyers before the launch, then on
  each of sixteen blocks of 1024 batch rows nests the six affine pieces as min (max (max · ·) ·) (max (max · ·) ·). The
  reference broadcasts everything to four axes and folds a maximum over `j` from −∞, then a minimum over `k` from +∞.
  On the extended reals the two are one function: the inner arithmetic is the same product and sum in the same order,
  and a fold of max (of min) from its neutral element over three (two) coordinates is the nested form. Nothing here
  needs the inputs to be finite.

  Proof/Envelope.lean states the function and the fold facts; Proof/ReferenceSide.lean reads the reference's run down
  to it; Proof/Relaid.lean, Proof/KernelBlock.lean and Proof/KernelArray.lean read the kernel's run down to it;
  Proof/Claims.lean proves the five claims, assembled below under the programs' stated facts.
-/
import proofs.«151522_j16063177687585_2_alg».proof.Defs
import proofs.«151522_j16063177687585_2_alg».proof.Proof.Gen.Kernel
import proofs.«151522_j16063177687585_2_alg».proof.Proof.Gen.Kernel.Skeleton
import proofs.«151522_j16063177687585_2_alg».proof.Proof.Gen.Kernel.Launch
import proofs.«151522_j16063177687585_2_alg».proof.Proof.Gen.Kernel.Points
import proofs.«151522_j16063177687585_2_alg».proof.Proof.Gen.Kernel.Frame
import proofs.«151522_j16063177687585_2_alg».proof.Proof.Gen.KernelIdeal
import proofs.«151522_j16063177687585_2_alg».proof.Proof.Gen.KernelIdeal.Skeleton
import proofs.«151522_j16063177687585_2_alg».proof.Proof.Gen.KernelIdeal.Launch
import proofs.«151522_j16063177687585_2_alg».proof.Proof.Gen.KernelIdeal.Points
import proofs.«151522_j16063177687585_2_alg».proof.Proof.Gen.KernelIdeal.Frame
import proofs.«151522_j16063177687585_2_alg».proof.Proof.Gen.ReferenceIdeal
import proofs.«151522_j16063177687585_2_alg».proof.Proof.Gen.KernelIdeal.Value
import proofs.«151522_j16063177687585_2_alg».proof.Proof.Gen.ReferenceIdeal.Run
import proofs.«151522_j16063177687585_2_alg».proof.Proof.Gen.ReferenceIdeal.Read
import proofs.«151522_j16063177687585_2_alg».proof.Proof.Gen.Pre_finite_inputs
import proofs.«151522_j16063177687585_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
